-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S1x1x512x2048 : Shape := ⟨4, ![1, 1, 512, 2048]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S1x1x512x2048 : S_.BroadcastsInDim S1x1x512x2048 (![] : Fin 0 → Fin S1x1x512x2048.rank)
  reducesTo_S1x1x512x2048_S_d0_1_2_3 : S1x1x512x2048.ReducesTo [0, 1, 2, 3] S_

variable [Facts]

def fn {F : FTy → Type} [FloatOps F] (main_arg0 : FVec F S8x4096x512 .f32) (main_arg1 : FVec F S1x1x512x2048 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S1x1x512x2048 .f32 := Host.absf main_arg1
  let main_cst_0 : FVec F S_ .f32 := constant S_ .f32 0x7F800000#32
  let main_v5 : FVec F S1x1x512x2048 .f32 := broadcastInDim S1x1x512x2048 ![] bcast_S_S1x1x512x2048 main_cst_0
  let main_v6 : IVec S1x1x512x2048 1 := cmpf .olt main_v4 main_v5
  let main_c_1 : IVec S_ 1 := constantI S_ 1 1#1
  let main_v7 : IVec S_ 1 := (fun x v => Host.reduce IntOp.andi x v reducesTo_S1x1x512x2048_S_d0_1_2_3 h_S_) main_v6 main_c_1
  let main_v8 : IVec S_ 1 := andi main_v3 main_v7
  main_v8
-- ==== Kernel.lean ====
abbrev S8x4096x512 : Shape := ⟨3, ![8, 4096, 512]⟩
abbrev S1x1x512x2048 : Shape := ⟨4, ![1, 1, 512, 2048]⟩
abbrev S32768x512 : Shape := ⟨2, ![32768, 512]⟩
abbrev S512x2048 : Shape := ⟨2, ![512, 2048]⟩
abbrev S_ : Shape := ⟨0, ![]⟩
abbrev S2048 : Shape := ⟨1, ![2048]⟩
abbrev S1x2048 : Shape := ⟨2, ![1, 2048]⟩
abbrev S32768x2048 : Shape := ⟨2, ![32768, 2048]⟩
abbrev S512x512 : Shape := ⟨2, ![512, 512]⟩
abbrev S512 : Shape := ⟨1, ![512]⟩
abbrev S512x1 : Shape := ⟨2, ![512, 1]⟩
abbrev S8x4096x2048 : Shape := ⟨3, ![8, 4096, 2048]⟩

abbrev nBuf : Space → Nat
  | .hbm => 14
  | .vmem => 6
  | .smem => 0
  | _ => 0

abbrev bufTy : (tb : Table) → Fin (tcTables nBuf tb) → BufTy
  | .hbm, ⟨0, _⟩ => ⟨S8x4096x512, .f32⟩
  | .hbm, ⟨1, _⟩ => ⟨S1x1x512x2048, .f32⟩
  | .hbm, ⟨2, _⟩ => ⟨S32768x512, .f32⟩
  | .hbm, ⟨3, _⟩ => ⟨S512x2048, .f32⟩
  | .hbm, ⟨4, _⟩ => ⟨S512x2048, .bf16⟩
  | .hbm, ⟨5, _⟩ => ⟨S512x2048, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S32768x2048, .f32⟩
  | .hbm, ⟨13, _⟩ => ⟨S8x4096x2048, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x512_S32768x512 : S8x4096x512.ShapeCasts S32768x512
  shapeCasts_S1x1x512x2048_S512x2048 : S1x1x512x2048.ShapeCasts S512x2048
  bitsLt_bf16_f32 : FTy.bits .bf16 < FTy.bits .f32
  reducesTo_S512x2048_S2048_d0 : S512x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  shapeCasts_S32768x2048_S8x4096x2048 : S32768x2048.ShapeCasts S8x4096x2048
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S1x1x512x2048 : Shape := ⟨4, ![1, 1, 512, 2048]⟩
abbrev S512x2048 : Shape := ⟨2, ![512, 2048]⟩
abbrev S_ : Shape := ⟨0, ![]⟩
abbrev S8x4096 : Shape := ⟨2, ![8, 4096]⟩
abbrev S8x4096x1 : Shape := ⟨3, ![8, 4096, 1]⟩
abbrev S2048 : Shape := ⟨1, ![2048]⟩
abbrev S8x4096x2048 : Shape := ⟨3, ![8, 4096, 2048]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S1x1x512x2048, .f32⟩
  | .hbm, ⟨2, _⟩ => ⟨S512x2048, .f32⟩
  | .hbm, ⟨3, _⟩ => ⟨S8x4096x512, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S512x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S8x4096x2048, .f32⟩
  | .hbm, ⟨17, _⟩ => ⟨S_, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S_, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S1x1x512x2048_S512x2048 : S1x1x512x2048.ShapeCasts S512x2048
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  reducesTo_S512x2048_S2048_d0 : S512x2048.ReducesTo [0] S2048
  bcast_S_S2048 : S_.BroadcastsInDim S2048 (![] : Fin 0 → Fin S2048.rank)
  bcast_S_S8x4096x2048 : S_.BroadcastsInDim S8x4096x2048 (![] : Fin 0 → Fin S8x4096x2048.rank)
  bcast_S2048_S1x1x2048_2 : S2048.BroadcastsInDim S1x1x2048 (![2] : Fin 1 → Fin S1x1x2048.rank)
  bcast_S8x4096x1_S8x4096x2048_0_1_2 : S8x4096x1.BroadcastsInDim S8x4096x2048 (![0, 1, 2] : Fin 3 → Fin S8x4096x2048.rank)
  bcast_S1x1x2048_S8x4096x2048_0_1_2 : S1x1x2048.BroadcastsInDim S8x4096x2048 (![0, 1, 2] : Fin 3 → Fin S8x4096x2048.rank)
  dot_S8x4096x512_S512x2048_S8x4096x2048_2_0_01_1_n_n_wf : DotDims.WF S8x4096x512 S512x2048 S8x4096x2048 [2] [0] [0, 1] [1] [] []

variable [Facts₀]

def dot_S8x4096x512_S512x2048_S8x4096x2048_2_0_01_1_n_n : DotDims S8x4096x512 S512x2048 S8x4096x2048 where
  lhsContracting := [2]
  rhsContracting := [0]
  lhsNonContracting := [0, 1]
  rhsNonContracting := [1]
  lhsBatch := []
  rhsBatch := []
  wf := dot_S8x4096x512_S512x2048_S8x4096x2048_2_0_01_1_n_n_wf

class Facts : Prop extends Facts₀ where

variable [Facts]
-- ==== Proof.MeanSqDist.lean ====
/-
  The mean squared distance of a row to a codebook column, in expanded form.

  For a row `x(b,s,·)` of 512 entries and a codebook column `cb(·,c)` of 512 entries,
      (1/512) · Σ_k (x_k − cb_k)²  =  (Σ_k x_k²)/512 + (Σ_k cb_k²)/512 − (Σ_k x_k·cb_k)·(1/256),
  and both programs compute the right-hand side. This module states that right-hand side once, as a function
  of the whole arrays over the extended reals, and proves the one law in which the two programs differ: one of
  them forms `2 · (s / 512)` where the other forms `s · 2⁻⁸`. On the extended reals these agree for EVERY `s`,
  the infinities included, because only commutativity and associativity of the product with positive reals are
  used — no distributivity, no cancelling — so nothing here asks the inputs to be finite.
-/
import Idealize.ShloMosaic.PureOps.Ideal
import Idealize.ShloMosaic.PureOps.Ideal.Laws
import Idealize.ShloMosaic.Lib.ValueIdx

noncomputable section

open scoped BigOperators

namespace Cert.MeanSqDist

open Idealize.ShloMosaic Idealize.ShloMosaic.ValueIdx

/-! ## The three literals -/

/-- The word `0x44000000` is the real number 512. -/
theorem ofBits_512 : Ideal.ofBits .f32 0x44000000#32 = ((512 : ℝ) : EReal) := by
  simp [Ideal.ofBits, Ideal.ieee, -EReal.coe_mul]; norm_num

/-- The word `0x40000000` is the real number 2. -/
theorem ofBits_2 : Ideal.ofBits .f32 0x40000000#32 = ((2 : ℝ) : EReal) := by
  simp [Ideal.ofBits, Ideal.ieee, -EReal.coe_mul]; norm_num

/-- The word `0x3B800000` is the dyadic 2⁻⁸ = 1/256, exactly. -/
theorem ofBits_inv256 : Ideal.ofBits .f32 0x3B800000#32 = ((1 / 256 : ℝ) : EReal) := by
  simp [Ideal.ofBits, Ideal.ieee, -EReal.coe_mul]; norm_num

/-! ## The law: twice the 512th part is the 256th part -/

/-- `2 · (s / 512) = s · (1/256)` for every extended real `s`: the quotient by the nonzero real 512 is the product
    with 1/512 (at ±∞ too), and the two real factors then multiply to 1/256. -/
theorem two_mul_div_512 (s : EReal) :
    Ideal.ofBits .f32 0x40000000#32 * Ideal.div s (Ideal.ofBits .f32 0x44000000#32) = s * Ideal.ofBits .f32 0x3B800000#32 := by
  rw [ofBits_512, ofBits_2, ofBits_inv256, Ideal.div_coe (by norm_num : (512 : ℝ) ≠ 0), mul_comm, mul_assoc, ← EReal.coe_mul]
  norm_num

/-! ## The function both programs compute -/

/-- Entry (b, s, c) of the result from the rows `x` [8, 4096, 512] and the codebook `cb` [512, 2048]: the mean of the
    row's squares, plus the mean of the column's squares, minus the row–column inner product over 256. -/
def at3 (x : (⟨3, ![8, 4096, 512]⟩ : Shape).Idx → EReal) (cb : (⟨2, ![512, 2048]⟩ : Shape).Idx → EReal)
    (b : Fin 8) (s : Fin 4096) (c : Fin 2048) : EReal :=
  (Ideal.div (∑ k : Fin 512, x (ix3 b s k) * x (ix3 b s k)) (Ideal.ofBits .f32 0x44000000#32)
    + Ideal.div (∑ k : Fin 512, cb (ix2 k c) * cb (ix2 k c)) (Ideal.ofBits .f32 0x44000000#32))
  - (∑ k : Fin 512, x (ix3 b s k) * cb (ix2 k c)) * Ideal.ofBits .f32 0x3B800000#32

/-- The whole [8, 4096, 2048] result. -/
def dist (x : (⟨3, ![8, 4096, 512]⟩ : Shape).Idx → EReal) (cb : (⟨2, ![512, 2048]⟩ : Shape).Idx → EReal) :
    (⟨3, ![8, 4096, 2048]⟩ : Shape).Idx → EReal :=
  fun i => at3 x cb (i 0) (i 1) (i 2)

theorem dist_ix3 (x : (⟨3, ![8, 4096, 512]⟩ : Shape).Idx → EReal) (cb : (⟨2, ![512, 2048]⟩ : Shape).Idx → EReal)
    (b : Fin 8) (s : Fin 4096) (c : Fin 2048) : dist x cb (ix3 b s c) = at3 x cb b s c := rfl

end Cert.MeanSqDist

end
-- ==== Proof.RefDist.lean ====
/-
  The reference computes the expanded mean squared distance.

  Read one operation at a time, entry (b, s, c) of the reference's result is
      (0 + Σ_k x(b,s,k)²)/512 + (0 + Σ_k cb(k,c)²)/512 − 2 · ((Σ_k x(b,s,k)·cb(k,c)) / 512),
  with `cb` the codebook seen as a [512, 2048] matrix. The zeros drop, the broadcasts only repeat a row's or a
  column's value, and the last term is `(Σ_k x·cb) · (1/256)` by the law of the specification module.
-/
import proofs.«141204_j9680856285671_2_alg».proof.Proof.Gen.ReferenceIdeal.Read
import proofs.«141204_j9680856285671_2_alg».proof.Proof.MeanSqDist

noncomputable section

open scoped BigOperators

namespace Cert.RefDist

open Cert.ReferenceIdeal Cert.ReferenceIdeal.Gen Cert.ReferenceIdeal.Read
open Idealize.ShloMosaic Idealize.ShloMosaic.ValueIdx

/-- The row whose squares are summed for entry (b, s, c) is row (b, s), whatever c. -/
theorem row_sq (b : Fin 8) (s : Fin 4096) (c : Fin 2048) (k : Fin 512) :
    idx_main_v2 (idx_main_v3 (idx_main_v14 (ix3 b s c))) k = ix3 b s k :=
  funext fun a => Fin.ext (by match a with | ⟨0, _⟩ => rfl | ⟨1, _⟩ => rfl | ⟨2, _⟩ => rfl)

/-- The column whose squares are summed for entry (b, s, c) is column c, whatever (b, s). -/
theorem col_sq (b : Fin 8) (s : Fin 4096) (c : Fin 2048) (k : Fin 512) :
    idx_main_v7 (idx_main_v13 (idx_main_v15 (ix3 b s c))) k = ix2 k c :=
  funext fun a => Fin.ext (by match a with | ⟨0, _⟩ => rfl | ⟨1, _⟩ => rfl)

/-- The inner product for entry (b, s, c) pairs row (b, s) … -/
theorem dot_row (b : Fin 8) (s : Fin 4096) (c : Fin 2048) (k : Fin 512) :
    lidx_main_v10 (ix3 b s c) k = ix3 b s k :=
  funext fun a => Fin.ext (by match a with | ⟨0, _⟩ => rfl | ⟨1, _⟩ => rfl | ⟨2, _⟩ => rfl)

/-- … with column c. -/
theorem dot_col (b : Fin 8) (s : Fin 4096) (c : Fin 2048) (k : Fin 512) :
    ridx_main_v10 (ix3 b s c) k = ix2 k c :=
  funext fun a => Fin.ext (by match a with | ⟨0, _⟩ => rfl | ⟨1, _⟩ => rfl)

/-- The reference's result, as a function of its two arguments, is the expanded mean squared distance of the rows
    to the columns of the codebook matrix. -/
theorem result_eq (x0 : (⟨S8x4096x512, .f32⟩ : BufTy).Contents (Elt Ideal)) (x1 : (⟨S1x1x512x2048, .f32⟩ : BufTy).Contents (Elt Ideal)) :
    val_main_v19 (F := Ideal) x0 x1 = Cert.MeanSqDist.dist x0 (val_main_v0 (F := Ideal) x1) := by
  funext i
  obtain ⟨b, s, c, rfl⟩ : ∃ (b : Fin 8) (s : Fin 4096) (c : Fin 2048), i = ix3 b s c := ⟨i 0, i 1, i 2, eq_ix3 i⟩
  rw [Cert.MeanSqDist.dist_ix3]
  simp only [val_main_v19_apply, val_main_v16_apply, val_main_v14_apply, val_main_v5_apply, val_main_v3_apply,
    val_main_v2_apply, val_main_v1_apply, val_main_cst_apply, val_main_v4_apply, val_main_cst_0_apply,
    val_main_v15_apply, val_main_v13_apply, val_main_v9_apply, val_main_v7_apply, val_main_v6_apply,
    val_main_cst_1_apply, val_main_v8_apply, val_main_cst_2_apply, val_main_v18_apply, val_main_v17_apply,
    val_main_cst_4_apply, val_main_v12_apply, val_main_v10_apply, val_main_v11_apply, val_main_cst_3_apply,
    row_sq, col_sq, dot_row, dot_col,
    Ideal.addf_def, Ideal.subf_def, Ideal.mulf_def, Ideal.hostDivf_def, Ideal.ofBits_def, Ideal.ofBits_zero_f32, zero_add,
    Cert.MeanSqDist.two_mul_div_512]
  rfl

end Cert.RefDist

end
-- ==== Proof.HostSide.lean ====
/-
  What the region finds in its three input arrays.

  Before the region the program re-lays the rows [8, 4096, 512] as a [32768, 512] matrix (row b·4096 + s is row
  (b, s)), re-lays the codebook [1, 1, 512, 2048] as a [512, 2048] matrix and narrows it to bf16 (the identity on
  the extended reals), and computes the column means of squares of that matrix as a [1, 2048] row:
  entry (0, q) is (0 + Σ_k cb(k,q)²)/512.
-/
import proofs.«141204_j9680856285671_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.HostSide

open Cert.KernelIdeal Cert.KernelIdeal.Gen
open Idealize.ShloMosaic Idealize.ShloMosaic.TcCoe Idealize.SL.Sem Idealize.ShloMosaic.StableHlo
open Idealize.ShloMosaic.ValueIdx

/-! ## The column means of squares -/

/-- The [1, 2048] row of column means of squares of a [512, 2048] matrix, in the host's operations. -/
def colMeanSq (cb : FVec Ideal S512x2048 .f32) : FVec Ideal S1x2048 .f32 :=
  Host.divf (F := Ideal)
    (broadcastInDim S1x2048 ![1] bcast_S2048_S1x2048_1
      (Host.reduceAdd (F := Ideal) (mulf cb cb) (constant (F := Ideal) S_ .f32 0x00000000#32) reducesTo_S512x2048_S2048_d0 h_S_))
    (broadcastInDim S1x2048 ![] bcast_S_S1x2048 (constant (F := Ideal) S_ .f32 0x44000000#32))

/-- Its entry (0, q): the sum of the squares of column q, over 512 (the sum starts from the zero word, which is 0). -/
theorem colMeanSq_apply (cb : FVec Ideal S512x2048 .f32) (q : Fin 2048) :
    colMeanSq cb (ix2 (0 : Fin 1) q)
      = Ideal.div (∑ k : Fin 512, cb (ix2 k q) * cb (ix2 k q)) (Ideal.ofBits .f32 0x44000000#32) := by
  unfold colMeanSq
  show Ideal.div _ _ = _
  refine congrArg₂ Ideal.div ?_ ?_
  · refine (broadcastInDim_apply _ bcast_S2048_S1x2048_1 _ (ix2 (0 : Fin 1) q) (ix1 q) (fun a => ?_)).trans ?_
    · match a with
      | ⟨0, _⟩ =>
        show q.val = if (2048 : Nat) = 1 then 0 else q.val
        rw [if_neg (by decide)]
    · simp only [Host.reduceAdd, Ideal.hostReduceAdd_def]
      rw [Ideal.hostReduceAdd_single reducesTo_S512x2048_S2048_d0 (by decide)]
      show Ideal.ofBits .f32 0x00000000#32 + _ = _
      rw [Ideal.ofBits_zero_f32, zero_add]
      refine Finset.sum_congr rfl fun k _ => ?_
      have e : (Shape.Reduces.lift (by decide : S512x2048.Reduces [0] S2048) (ix1 q) k) = ix2 k q :=
        funext fun a => Fin.ext (by match a with | ⟨0, _⟩ => rfl | ⟨1, _⟩ => rfl)
      show cb _ * cb _ = _
      rw [e]
      rfl
  · exact broadcastInDim_apply _ bcast_S_S1x2048 _ (ix2 (0 : Fin 1) q) ix0 (fun a => a.elim0)

/-! ## The arrays at the region's entry -/

variable (m : (ℓ : Loc nD τ sig) → Buf (Elt Ideal) ℓ)

/-- The codebook as a [512, 2048] matrix. -/
abbrev codebook (c : Dev nD) : FVec Ideal S512x2048 .f32 :=
  shapeCast S512x2048 (m ((c : Thread nD τ).loc main_arg1)) shapeCasts_S1x1x512x2048_S512x2048

/-- The rows as the region finds them: the [8, 4096, 512] argument re-laid as [32768, 512]. -/
theorem rows_eq (c : Dev nD) :
    (V m c main_v0 : S32768x512.Idx → EReal)
      = shapeCast S32768x512 (m ((c : Thread nD τ).loc main_arg0)) shapeCasts_S8x4096x512_S32768x512 := by
  show StableHlo.after hostOps0 (fun b => m (c, b)) (Proc.devRef .tc main_v0) = _
  after_results <;> rfl

/-- The codebook matrix as the region finds it (narrowed to bf16: the same extended reals). -/
theorem codebook_eq (c : Dev nD) : (V m c main_v2 : S512x2048.Idx → EReal) = codebook m c := by
  show StableHlo.after hostOps0 (fun b => m (c, b)) (Proc.devRef .tc main_v2) = _
  after_results <;> rfl

/-- The row of column means of squares as the region finds it. -/
theorem colMeans_eq (c : Dev nD) : (V m c main_v7 : S1x2048.Idx → EReal) = colMeanSq (codebook m c) := by
  show StableHlo.after hostOps0 (fun b => m (c, b)) (Proc.devRef .tc main_v7) = _
  after_results <;> rfl

/-- Row b·4096 + s of the [32768, 512] matrix is row (b, s) of the argument. -/
theorem rows_apply (c : Dev nD) (b : Fin 8) (s : Fin 4096) (k : Fin 512) (r : Fin 32768) (hr : r.val = b.val * 4096 + s.val) :
    (V m c main_v0 : S32768x512.Idx → EReal) (ix2 r k) = m ((c : Thread nD τ).loc main_arg0) (ix3 b s k) := by
  rw [rows_eq]
  refine shapeCast_apply _ shapeCasts_S8x4096x512_S32768x512 (ix2 r k) (ix3 b s k) ?_
  rw [Shape.rowMajor_val_three, Shape.rowMajor_val_two]
  show (b.val * 4096 + s.val) * 512 + k.val = r.val * 512 + k.val
  rw [hr]

end Cert.KernelIdeal.HostSide

end
-- ==== Proof.BlockDist.lean ====
/-
  One block of the kernel's result, entry by entry.

  The body takes a [512, 512] block `xb` of rows, the whole [512, 2048] codebook matrix `cb` and a [1, 2048] row `c2`
  (the column means of squares, computed before the region), and stores
      entry (p, q)  =  (Σ_k xb(p,k)²)/512 + c2(0,q) − (Σ_k xb(p,k)·cb(k,q)) · 2⁻⁸.
  The row sum keeps its axis as a unit axis and is repeated along the 2048 columns; `c2`'s one row is repeated along
  the 512 rows; the matrix product accumulates into zero, so it is the plain sum over the contracted axis; the
  narrowing of `xb` to bf16 before the product changes nothing on the extended reals.
-/
import proofs.«141204_j9680856285671_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.BlockDist

open Cert.KernelIdeal Cert.KernelIdeal.Gen
open Idealize.ShloMosaic Idealize.ShloMosaic.ValueIdx

/-! ## The operations that are not entry-by-entry -/

/-- The sum along a row, kept as a [512, 1] column: entry (p, 0) is the sum of row p. -/
theorem rowSum_keepdims (v : FVec Ideal S512x512 .f32) (p : Fin 512) :
    shapeCast S512x1 (multiReduction .add [1] S512 v 0x00000000#32 reduces_S512x512_S512 (.inl rfl) rfl) shapeCasts_S512_S512x1
        (ix2 p (0 : Fin 1))
      = ∑ k : Fin 512, v (ix2 p k) := by
  refine (shapeCast_apply _ shapeCasts_S512_S512x1 (ix2 p (0 : Fin 1)) (ix1 p) ?_).trans ?_
  · rw [Shape.rowMajor_val_one, Shape.rowMajor_val_two]
    show p.val = p.val * 1 + 0
    omega
  · refine (Ideal.multiReduction_add_single v 0x00000000#32 reduces_S512x512_S512 (.inl rfl) rfl (ix1 p)).trans ?_
    refine Finset.sum_congr rfl fun k _ => congrArg v ?_
    exact funext fun a => Fin.ext (by match a with | ⟨0, _⟩ => rfl | ⟨1, _⟩ => rfl)

/-- A [512, 1] column repeated along 2048 columns reads its row's one entry. -/
theorem column_repeated (u : (⟨2, ![512, 1]⟩ : Shape).Idx → EReal) (p : Fin 512) (q : Fin 2048) :
    broadcastTo S512x2048 u broadcasts_S512x1_S512x2048 (ix2 p q) = u (ix2 p (0 : Fin 1)) := by
  refine broadcastTo_apply u broadcasts_S512x1_S512x2048 (ix2 p q) (ix2 p (0 : Fin 1)) fun ax => ?_
  match ax with
  | ⟨0, _⟩ =>
    show p.val = if (512 : Nat) = 1 then 0 else p.val
    rw [if_neg (by decide)]
  | ⟨1, _⟩ =>
    show 0 = if (1 : Nat) = 1 then 0 else q.val
    rw [if_pos rfl]

/-- The left operand is read in the output's row … -/
theorem lhs_row (i : S512x2048.Idx) (κ : dot_S512x512_S512x2048_S512x2048_1_0_0_1_n_n.contr.Idx) :
    (dot_S512x512_S512x2048_S512x2048_1_0_0_1_n_n.lhsIdx i κ 0).val = (i 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl

/-- … and the right operand in the output's column. -/
theorem rhs_col (i : S512x2048.Idx) (κ : dot_S512x512_S512x2048_S512x2048_1_0_0_1_n_n.contr.Idx) :
    (dot_S512x512_S512x2048_S512x2048_1_0_0_1_n_n.rhsIdx i κ 1).val = (i 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The matrix product into a zero accumulator: entry (p, q) is the sum over k of row p times column q. -/
theorem matmul_entry (l : FVec Ideal S512x512 .bf16) (r : FVec Ideal S512x2048 .bf16) (p : Fin 512) (q : Fin 2048) :
    matmul dot_S512x512_S512x2048_S512x2048_1_0_0_1_n_n none l r (constant S512x2048 .f32 0x00000000#32) (ix2 p q)
      = ∑ k : Fin 512, l (ix2 p k) * r (ix2 k q) := by
  refine (Ideal.matmul_constant_zero_apply dot_S512x512_S512x2048_S512x2048_1_0_0_1_n_n none l r (ix2 p q)).trans ?_
  rw [← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p q)
      ((contrEquiv1 dot_S512x512_S512x2048_S512x2048_1_0_0_1_n_n 512 rfl rfl).symm k) = ix2 p k :=
    funext fun a => Fin.ext (by
      match a with
      | ⟨0, _⟩ => exact lhs_row _ _
      | ⟨1, _⟩ => exact (dot_S512x512_S512x2048_S512x2048_1_0_0_1_n_n.lhsIdx_val_of_single rfl _ _).trans hk)
  have er : dot_S512x512_S512x2048_S512x2048_1_0_0_1_n_n.rhsIdx (ix2 p q)
      ((contrEquiv1 dot_S512x512_S512x2048_S512x2048_1_0_0_1_n_n 512 rfl rfl).symm k) = ix2 k q :=
    funext fun a => Fin.ext (by
      match a with
      | ⟨0, _⟩ => exact (dot_S512x512_S512x2048_S512x2048_1_0_0_1_n_n.rhsIdx_val_of_single rfl _ _).trans hk
      | ⟨1, _⟩ => exact rhs_col _ _)
  rw [el, er]

/-! ## The block -/

/-- Entry (p, q) of what the body stores, from the three blocks it loads. -/
theorem entry (xb : Vec Ideal S512x512 .f32) (cb : Vec Ideal S512x2048 .bf16) (c2 : Vec Ideal S1x2048 .f32) (p : Fin 512) (q : Fin 2048) :
    k0_pay1 (F := Ideal) xb cb c2 (ix2 p q)
      = (Ideal.div (∑ k : Fin 512, xb (ix2 p k) * xb (ix2 p k)) (Ideal.ofBits .f32 0x44000000#32) + c2 (ix2 (0 : Fin 1) q))
        - (∑ k : Fin 512, xb (ix2 p k) * cb (ix2 k q)) * Ideal.ofBits .f32 0x3B800000#32 := by
  unfold k0_pay1
  simp only [shapeCast_self]
  refine congrArg₂ (· - ·) (congrArg₂ (· + ·) ?_ ?_) (congrArg₂ (· * ·) ?_ rfl)
  · refine (column_repeated _ p q).trans ?_
    refine congrArg₂ Ideal.div ?_ rfl
    exact rowSum_keepdims _ p
  · exact broadcastTo_1b_ab_apply c2 broadcasts_S1x2048_S512x2048 p q
  · exact matmul_entry _ _ p q

end Cert.BlockDist

end
-- ==== Proof.ArrayDist.lean ====
/-
  From the 64 blocks to the whole [32768, 2048] array.

  Grid point t takes rows 512·t … 512·t + 511 of the row matrix, the whole codebook matrix and the whole row of
  column means, and writes back rows 512·t … 512·t + 511 of the result. Each written block is the restriction to
  those rows of ONE function of the three arrays — entry (r, q) depends on row r of the row matrix, column q of the
  codebook matrix and entry (0, q) of the means — and the 64 row bands cover every row (row r lies in band r / 512),
  so after the run the array is that function.
-/
import proofs.«141204_j9680856285671_2_alg».proof.Proof.Gen.KernelIdeal.Frame
import proofs.«141204_j9680856285671_2_alg».proof.Proof.BlockDist
import Idealize.ShloMosaic.Lib.Pipeline.Value
import Idealize.ShloMosaic.Lib.ValueIdx

noncomputable section

open scoped BigOperators

namespace Cert.KernelIdeal.ArrayDist

open Cert.KernelIdeal Cert.KernelIdeal.Gen
open Idealize.ShloMosaic Idealize.ShloMosaic.TcCoe Idealize.SL.Sem
open Idealize.ShloMosaic.Pipeline (Dat)
open Idealize.ShloMosaic.ValueIdx

/-! ## The function of the three arrays -/

/-- Entry (r, q) from the row matrix `X`, the codebook matrix `C` and the row of column means `c2`. -/
def at2 (X : S32768x512.Idx → EReal) (C : S512x2048.Idx → EReal) (c2 : S1x2048.Idx → EReal) (r : Fin 32768) (q : Fin 2048) : EReal :=
  (Ideal.div (∑ k : Fin 512, X (ix2 r k) * X (ix2 r k)) (Ideal.ofBits .f32 0x44000000#32) + c2 (ix2 (0 : Fin 1) q))
    - (∑ k : Fin 512, X (ix2 r k) * C (ix2 k q)) * Ideal.ofBits .f32 0x3B800000#32

/-- The whole [32768, 2048] array. -/
def rowDist (X : S32768x512.Idx → EReal) (C : S512x2048.Idx → EReal) (c2 : S1x2048.Idx → EReal) : S32768x2048.Idx → EReal :=
  fun i => at2 X C c2 (i 0) (i 1)

/-- A stored block agrees with that function at an entry as soon as the loaded blocks agree with the arrays on the
    row, the column and the mean the entry depends on. -/
theorem block_entry (X : S32768x512.Idx → EReal) (C : S512x2048.Idx → EReal) (c2 : S1x2048.Idx → EReal)
    (xb : Vec Ideal S512x512 .f32) (cb : Vec Ideal S512x2048 .bf16) (c2b : Vec Ideal S1x2048 .f32)
    (p : Fin 512) (q : Fin 2048) (r : Fin 32768) (q' : Fin 2048)
    (hx : ∀ k : Fin 512, xb (ix2 p k) = X (ix2 r k))
    (hc : ∀ k : Fin 512, cb (ix2 k q) = C (ix2 k q'))
    (h2 : c2b (ix2 (0 : Fin 1) q) = c2 (ix2 (0 : Fin 1) q')) :
    k0_pay1 (F := Ideal) xb cb c2b (ix2 p q) = at2 X C c2 r q' := by
  rw [Cert.BlockDist.entry xb cb c2b p q, h2]
  unfold at2
  simp only [hx, hc]

variable (m : (ℓ : Loc nD τ sig) → Buf (Elt Ideal) ℓ)

/-! ## What a point writes back -/

theorem zero_offsets : (![0, 0] : Fin 2 → Nat) = fun _ => 0 := funext fun a => by fin_cases a <;> rfl

/-- The printed index maps, decided over the 64 points: the row matrix's block moves with the output's along the rows,
    and every other block index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row band is some point's. -/
theorem band_onto : ∀ (b : Fin 64), ∃ t : Fin cfg0.N, win0_3.index t = ![b.val, 0] :=
  (by decide +kernel : ∀ (b : Fin 64), ∃ t : Fin grid0.N, win0_3.index t = ![b.val, 0])

/-- WHAT POINT `t` WRITES BACK is block `t` of `rowDist` of the three arrays as the region finds them. -/
theorem flushed_eq (c : Dev nD) (t : Fin cfg0.N) :
    (dats m 0 c).flushed 3 t
      = ((cfg0.win 3).blk t).view.read (Elt Ideal) (rowDist (V m c main_v0) (V m c main_v2) (V m c main_v7)) := by
  show (cfg0.win 3).cut (grid0.coords t) ((dats m 0 c).after 3 t) = _
  rw [after0_3]
  unfold out0_3
  rw [View.canon_unit_zero zero_offsets]
  simp only [View.ld_unit_zero (S := S512x512) zero_offsets, View.ld_unit_zero (S := S512x2048) zero_offsets,
    View.ld_unit_zero (S := S1x2048) zero_offsets]
  obtain ⟨e0, e1, e2, e3, e4, e5, e6⟩ := idx_facts t
  funext j
  have hj : j = ix2 (j 0) (j 1) := eq_ix2 j
  show k0_pay1 (F := Ideal) (iblk m c 0 t) (iblk m c 1 t) (iblk m c 2 t) j
    = at2 (V m c main_v0) (V m c main_v2) (V m c main_v7) ((((cfg0.win 3).blk t).view.emb j) 0) ((((cfg0.win 3).blk t).view.emb j) 1)
  rw [hj]
  refine block_entry (V m c main_v0) (V m c main_v2) (V m c main_v7) (iblk m c 0 t) (iblk m c 1 t) (iblk m c 2 t)
    (j 0) (j 1) _ _ (fun k => ?_) (fun k => ?_) ?_
  · show V m c main_v0 (((cfg0.win 0).blk t).view.emb (ix2 (j 0) k)) = V m c main_v0 _
    refine congrArg (V m c main_v0) (funext fun a => Fin.ext ?_)
    match a with
    | ⟨0, _⟩ =>
      show win0_0.index t (0 : Fin 2) * 512 + 1 * (j 0).val = win0_3.index t (0 : Fin 2) * 512 + 1 * (j 0).val
      rw [e0]
    | ⟨1, _⟩ =>
      show win0_0.index t (1 : Fin 2) * 512 + 1 * k.val = k.val
      rw [e1]; omega
  · show V m c main_v2 (((cfg0.win 1).blk t).view.emb (ix2 k (j 1))) = V m c main_v2 _
    refine congrArg (V m c main_v2) (funext fun a => Fin.ext ?_)
    match a with
    | ⟨0, _⟩ =>
      show win0_1.index t (0 : Fin 2) * 512 + 1 * k.val = k.val
      rw [e2]; omega
    | ⟨1, _⟩ =>
      show win0_1.index t (1 : Fin 2) * 2048 + 1 * (j 1).val = win0_3.index t (1 : Fin 2) * 2048 + 1 * (j 1).val
      rw [e3, e6]
  · show V m c main_v7 (((cfg0.win 2).blk t).view.emb (ix2 (0 : Fin 1) (j 1))) = V m c main_v7 _
    refine congrArg (V m c main_v7) (funext fun a => Fin.ext ?_)
    match a with
    | ⟨0, _⟩ =>
      show win0_2.index t (0 : Fin 2) * 1 + 1 * 0 = 0
      rw [e4]
    | ⟨1, _⟩ =>
      show win0_2.index t (1 : Fin 2) * 2048 + 1 * (j 1).val = win0_3.index t (1 : Fin 2) * 2048 + 1 * (j 1).val
      rw [e5, e6]

/-! ## The cover -/

/-- An index of the array is in point `t`'s block iff each coordinate is in the block's range on its axis. -/
theorem mem_blk (t : Fin cfg0.N) (i : S32768x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v8).slice (win0_3.rect t)).set ↔ _
  rw [View.set_slice_whole, Rect.mem_set_unit]
  exact Iff.rfl

/-- Every entry of the array lies in the block of the point of its row band, and that point writes back. -/
theorem cover (i : S32768x2048.Idx) :
    ∃ t : Fin cfg0.N, (cfg0.win 3).flush t = true ∧ i ∈ ((cfg0.win 3).blk t).view.set := by
  have hi0 : (i 0).val < 32768 := (i 0).isLt
  have hi1 : (i 1).val < 2048 := (i 1).isLt
  obtain ⟨t, ht⟩ := band_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- THE ARRAY after the run. -/
theorem final (c : Dev nD) :
    (dats m 0 c).arrAt 3 cfg0.N = rowDist (V m c main_v0) (V m c main_v2) (V m c main_v7) :=
  (dats m 0 c).arrAt_eq_of_cover 3 _ (fun t _ => flushed_eq m c t) cover

end Cert.KernelIdeal.ArrayDist

end
-- ==== Proof.KernelDist.lean ====
/-
  The kernel's program computes the expanded mean squared distance.

  After the region the program re-lays the [32768, 2048] array as [8, 4096, 2048]: entry (b, s, c) is entry
  (b·4096 + s, c) of the array. That array is the row-distance function of the three arrays the region finds
  (the blocks-to-array module), row b·4096 + s of the row matrix is row (b, s) of the argument, and the row of
  column means holds (Σ_k cb(k,c)²)/512 at column c (the host-side module). So the result is the specification's
  function of the argument rows and the codebook matrix.
-/
import proofs.«141204_j9680856285671_2_alg».proof.Proof.Gen.KernelIdeal.Frame
import proofs.«141204_j9680856285671_2_alg».proof.Proof.MeanSqDist
import proofs.«141204_j9680856285671_2_alg».proof.Proof.HostSide
import proofs.«141204_j9680856285671_2_alg».proof.Proof.ArrayDist
import Idealize.ShloMosaic.Lib.StableHlo.Run
import Idealize.ShloMosaic.Lib.Pipeline.Value

noncomputable section

open scoped BigOperators

namespace Cert.KernelIdeal.KernelDist

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The program's result is the output array re-laid as [8, 4096, 2048]. -/
theorem tail_eq (c : Dev nD) :
    (Pipeline.afterTail₀ cfgs (dats m) 0 (V0 m) [hostOps1] c main_v9 : S8x4096x2048.Idx → EReal)
      = shapeCast S8x4096x2048 ((dats m 0 c).arrAt 3 cfg0.N : S32768x2048.Idx → EReal) shapeCasts_S32768x2048_S8x4096x2048 := by
  unfold Pipeline.afterTail₀
  show StableHlo.after hostOps1 _ (Proc.devRef .tc main_v9) = _
  after_results
  show shapeCast S8x4096x2048
      (Pipeline.withArrays spec0 c (V0 m c) (fun w => (dats m 0 c).arrAt w cfg0.N) (Proc.devRef .tc (Pipeline.arrRef spec0 3)))
      shapeCasts_S32768x2048_S8x4096x2048 = _
  rw [Pipeline.withArrays_arr spec0 launch0.win.arr_inj c _ _ 3]

/-- Entry by entry, it is the specification's function of the argument rows and the codebook matrix. -/
theorem result_eq (c : Dev nD) :
    (Pipeline.afterTail₀ cfgs (dats m) 0 (V0 m) [hostOps1] c main_v9 : S8x4096x2048.Idx → EReal)
      = Cert.MeanSqDist.dist (m ((c : Thread nD τ).loc main_arg0)) (HostSide.codebook m c) := by
  rw [tail_eq, ArrayDist.final, HostSide.codebook_eq, HostSide.colMeans_eq]
  funext i
  obtain ⟨b, s, q, rfl⟩ : ∃ (b : Fin 8) (s : Fin 4096) (q : Fin 2048), i = ix3 b s q := ⟨i 0, i 1, i 2, eq_ix3 i⟩
  have hr : b.val * 4096 + s.val < 32768 := by have := b.isLt; have := s.isLt; omega
  refine (shapeCast_apply _ shapeCasts_S32768x2048_S8x4096x2048 (ix3 b s q) (ix2 (⟨b.val * 4096 + s.val, hr⟩ : Fin 32768) q) ?_).trans ?_
  · rw [Shape.rowMajor_val_two, Shape.rowMajor_val_three]
    rfl
  · rw [Cert.MeanSqDist.dist_ix3]
    show ArrayDist.at2 (V m c main_v0) (HostSide.codebook m c) (HostSide.colMeanSq (HostSide.codebook m c))
      (⟨b.val * 4096 + s.val, hr⟩ : Fin 32768) q = _
    unfold ArrayDist.at2 Cert.MeanSqDist.at3
    rw [HostSide.colMeanSq_apply]
    simp only [fun k => HostSide.rows_apply m c b s k (⟨b.val * 4096 + s.val, hr⟩ : Fin 32768) rfl]

/-- Every weakly fair execution of the kernel's program terminates with its result at that function and its two
    arguments as launched. -/
theorem run : θ_run defs (onTc (τ := τ) (main (F := Ideal))) ⟨m, fun _ => 0, ρ⟩ fun r => ∀ c : Dev nD,
      r.2.mem ((c : Thread nD τ).loc main_v9)
        = Cert.MeanSqDist.dist (m ((c : Thread nD τ).loc main_arg0)) (HostSide.codebook m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v9 (Pipeline.mem_restRefs_of main_v9 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelDist

end
-- ==== Proof.lean ====
/-
  The mean squared distance of every row to every codebook column: kernel against reference, on the extended reals.

  For rows `x` [8, 4096, 512] and a codebook `cb` [1, 1, 512, 2048] both programs return, at entry (b, s, c),
      (Σ_k x(b,s,k)²)/512 + (Σ_k cb(k,c)²)/512 − (Σ_k x(b,s,k)·cb(k,c))/256,
  the expanded form of (1/512)·Σ_k (x(b,s,k) − cb(k,c))².
  The kernel works on the rows as a [32768, 512] matrix in 64 bands of 512 rows, takes the column means of squares
  from a row computed before the region, multiplies the inner products by the dyadic 2⁻⁸, and re-lays its
  [32768, 2048] result as [8, 4096, 2048]. The reference works on the three-axis arrays directly, divides the inner
  products by 512 and then doubles them. Narrowing to bf16 before the matrix product, the tiling, and the order of
  each sum make no difference on the extended reals; `2·(s/512) = s·2⁻⁸` holds for every extended real `s` (no
  distributivity is used), so the precondition that the inputs are finite is never opened.

  The three frames are the programs' runs with the results dropped; the idealized kernel is the printed kernel's own
  text (no rewrite was applied), so there is nothing to preserve; the algebraic claim sets the kernel's run beside the
  reference's run, both ending at the same function of the arguments.
-/
import proofs.«141204_j9680856285671_2_alg».proof.Defs
import proofs.«141204_j9680856285671_2_alg».proof.Proof.Gen.Kernel
import proofs.«141204_j9680856285671_2_alg».proof.Proof.Gen.Kernel.Skeleton
import proofs.«141204_j9680856285671_2_alg».proof.Proof.Gen.Kernel.Launch
import proofs.«141204_j9680856285671_2_alg».proof.Proof.Gen.Kernel.Points
import proofs.«141204_j9680856285671_2_alg».proof.Proof.Gen.Kernel.Frame
import proofs.«141204_j9680856285671_2_alg».proof.Proof.Gen.KernelIdeal
import proofs.«141204_j9680856285671_2_alg».proof.Proof.Gen.KernelIdeal.Skeleton
import proofs.«141204_j9680856285671_2_alg».proof.Proof.Gen.KernelIdeal.Launch
import proofs.«141204_j9680856285671_2_alg».proof.Proof.Gen.KernelIdeal.Points
import proofs.«141204_j9680856285671_2_alg».proof.Proof.Gen.KernelIdeal.Frame
import proofs.«141204_j9680856285671_2_alg».proof.Proof.Gen.ReferenceIdeal
import proofs.«141204_j9680856285671_2_alg».proof.Proof.Gen.ReferenceIdeal.Run
import proofs.«141204_j9680856285671_2_alg».proof.Proof.Gen.ReferenceIdeal.Read
import proofs.«141204_j9680856285671_2_alg».proof.Proof.Gen.Pre_finite_inputs
import proofs.«141204_j9680856285671_2_alg».proof.Proof.MeanSqDist
import proofs.«141204_j9680856285671_2_alg».proof.Proof.RefDist
import proofs.«141204_j9680856285671_2_alg».proof.Proof.KernelDist
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories that agree on the rows and the codebook, both programs end with the expanded mean squared
    distance of the rows to the columns of the codebook matrix: the kernel by its blocks (the kernel-side modules),
    the reference operation by operation (the reference-side module); the two spell the codebook matrix alike. -/
theorem algebraic : Cert.algebraic_KernelIdeal_ReferenceIdeal := by
  intro m ρ m' ρ' _ hagree
  refine ⟨fun c => Cert.MeanSqDist.dist (m ((c.tc : Thread Cert.KernelIdeal.nD Cert.KernelIdeal.τ).loc Cert.KernelIdeal.main_arg0))
      (Cert.KernelIdeal.HostSide.codebook m c), Cert.KernelIdeal.KernelDist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefDist.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
